-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096x2 : Shape := ⟨3, ![4096, 4096, 2]⟩
abbrev S16777216x2 : Shape := ⟨2, ![16777216, 2]⟩
abbrev S_ : Shape := ⟨0, ![]⟩

class Facts : Prop where
  bcast_S_S4096x4096x2 : S_.BroadcastsInDim S4096x4096x2 (![] : Fin 0 → Fin S4096x4096x2.rank)
  reducesTo_S4096x4096x2_S_d0_1_2 : S4096x4096x2.ReducesTo [0, 1, 2] S_
  h_S_ : 0 < S_.numel
  bcast_S_S16777216x2 : S_.BroadcastsInDim S16777216x2 (![] : Fin 0 → Fin S16777216x2.rank)
  reducesTo_S16777216x2_S_d0_1 : S16777216x2.ReducesTo [0, 1] S_

variable [Facts]

def fn_part1 {F : FTy → Type} [FloatOps F] (main_arg1 : FVec F S16777216x2 .f32) (main_v14 : IVec S_ 1) (main_v15 : FVec F S16777216x2 .f32) : IVec S_ 1 :=
  let main_v16 : FVec F S16777216x2 .f32 := addf main_arg1 main_v15
  let main_v17 : FVec F S16777216x2 .f32 := Host.log main_v16
  let main_v18 : FVec F S16777216x2 .f32 := Host.negf main_v17
  let main_cst_6 : FVec F S_ .f32 := constant S_ .f32 0x1E3CE508#32
  let main_v19 : FVec F S16777216x2 .f32 := broadcastInDim S16777216x2 ![] bcast_S_S16777216x2 main_cst_6
  let main_v20 : FVec F S16777216x2 .f32 := addf main_v18 main_v19
  let main_cst_7 : FVec F S_ .f32 := constant S_ .f32 0x00000000#32
  let main_v21 : FVec F S16777216x2 .f32 := broadcastInDim S16777216x2 ![] bcast_S_S16777216x2 main_cst_7
  let main_v22 : IVec S16777216x2 1 := cmpf .ogt main_v20 main_v21
  let main_c_8 : IVec S_ 1 := constantI S_ 1 1#1
  let main_v23 : IVec S_ 1 := (fun x v => Host.reduce IntOp.andi x v reducesTo_S16777216x2_S_d0_1 h_S_) main_v22 main_c_8
  let main_v24 : IVec S_ 1 := andi main_v14 main_v23
  main_v24

def fn {F : FTy → Type} [FloatOps F] (main_arg0 : FVec F S4096x4096x2 .f32) (main_arg1 : FVec F S16777216x2 .f32) : IVec S_ 1 :=
  let main_v0 : FVec F S4096x4096x2 .f32 := Host.absf main_arg0
  let main_cst : FVec F S_ .f32 := constant S_ .f32 0x7F800000#32
  let main_v1 : FVec F S4096x4096x2 .f32 := broadcastInDim S4096x4096x2 ![] bcast_S_S4096x4096x2 main_cst
  let main_v2 : IVec S4096x4096x2 1 := cmpf .olt main_v0 main_v1
  let main_c : IVec S_ 1 := constantI S_ 1 1#1
  let main_v3 : IVec S_ 1 := (fun x v => Host.reduce IntOp.andi x v reducesTo_S4096x4096x2_S_d0_1_2 h_S_) main_v2 main_c
  let main_v4 : FVec F S16777216x2 .f32 := Host.absf main_arg1
  let main_cst_0 : FVec F S_ .f32 := constant S_ .f32 0x7F800000#32
  let main_v5 : FVec F S16777216x2 .f32 := broadcastInDim S16777216x2 ![] bcast_S_S16777216x2 main_cst_0
  let main_v6 : IVec S16777216x2 1 := cmpf .olt main_v4 main_v5
  let main_c_1 : IVec S_ 1 := constantI S_ 1 1#1
  let main_v7 : IVec S_ 1 := (fun x v => Host.reduce IntOp.andi x v reducesTo_S16777216x2_S_d0_1 h_S_) main_v6 main_c_1
  let main_v8 : IVec S_ 1 := andi main_v3 main_v7
  let main_cst_2 : FVec F S_ .f32 := constant S_ .f32 0x1E3CE508#32
  let main_v9 : FVec F S16777216x2 .f32 := broadcastInDim S16777216x2 ![] bcast_S_S16777216x2 main_cst_2
  let main_v10 : FVec F S16777216x2 .f32 := addf main_arg1 main_v9
  let main_cst_3 : FVec F S_ .f32 := constant S_ .f32 0x00000000#32
  let main_v11 : FVec F S16777216x2 .f32 := broadcastInDim S16777216x2 ![] bcast_S_S16777216x2 main_cst_3
  let main_v12 : IVec S16777216x2 1 := cmpf .ogt main_v10 main_v11
  let main_c_4 : IVec S_ 1 := constantI S_ 1 1#1
  let main_v13 : IVec S_ 1 := (fun x v => Host.reduce IntOp.andi x v reducesTo_S16777216x2_S_d0_1 h_S_) main_v12 main_c_4
  let main_v14 : IVec S_ 1 := andi main_v8 main_v13
  let main_cst_5 : FVec F S_ .f32 := constant S_ .f32 0x1E3CE508#32
  let main_v15 : FVec F S16777216x2 .f32 := broadcastInDim S16777216x2 ![] bcast_S_S16777216x2 main_cst_5
  fn_part1 (F := F) main_arg1 main_v14 main_v15
-- ==== Kernel.lean ====
abbrev S4096x4096x2 : Shape := ⟨3, ![4096, 4096, 2]⟩
abbrev S16777216x2 : Shape := ⟨2, ![16777216, 2]⟩
abbrev S4096x32x128x2 : Shape := ⟨4, ![4096, 32, 128, 2]⟩
abbrev S4096x32x2x128 : Shape := ⟨4, ![4096, 32, 2, 128]⟩
abbrev S262144x128 : Shape := ⟨2, ![262144, 128]⟩
abbrev S4096x4096 : Shape := ⟨2, ![4096, 4096]⟩
abbrev S8192x128 : Shape := ⟨2, ![8192, 128]⟩
abbrev S128x4096 : Shape := ⟨2, ![128, 4096]⟩
abbrev S4096x2x128 : Shape := ⟨3, ![4096, 2, 128]⟩
abbrev S4096x1x128 : Shape := ⟨3, ![4096, 1, 128]⟩
abbrev S4096x128 : Shape := ⟨2, ![4096, 128]⟩

abbrev nBuf : Space → Nat
  | .hbm => 9
  | .vmem => 6
  | .smem => 0
  | _ => 0

abbrev bufTy : (tb : Table) → Fin (tcTables nBuf tb) → BufTy
  | .hbm, ⟨0, _⟩ => ⟨S4096x4096x2, .f32⟩
  | .hbm, ⟨1, _⟩ => ⟨S16777216x2, .f32⟩
  | .hbm, ⟨2, _⟩ => ⟨S4096x32x128x2, .f32⟩
  | .hbm, ⟨3, _⟩ => ⟨S4096x32x2x128, .f32⟩
  | .hbm, ⟨4, _⟩ => ⟨S262144x128, .f32⟩
  | .hbm, ⟨5, _⟩ => ⟨S4096x32x128x2, .f32⟩
  | .hbm, ⟨6, _⟩ => ⟨S4096x32x2x128, .f32⟩
  | .hbm, ⟨7, _⟩ => ⟨S262144x128, .f32⟩
  | .hbm, ⟨8, _⟩ => ⟨S4096x4096, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x4096, .f32⟩
  | .local _ .vmem, ⟨5, _⟩ => ⟨S128x4096, .f32⟩
  | _, _ => ⟨S4096x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x4096x2_S4096x32x128x2 : S4096x4096x2.ShapeCasts S4096x32x128x2
  transposes_S4096x32x128x2_S4096x32x2x128_0_1_3_2 : S4096x32x128x2.Transposes [0, 1, 3, 2] S4096x32x2x128
  shapeCasts_S4096x32x2x128_S262144x128 : S4096x32x2x128.ShapeCasts S262144x128
  shapeCasts_S16777216x2_S4096x32x128x2 : S16777216x2.ShapeCasts S4096x32x128x2
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S4096x2x128 : S8192x128.ShapeCasts S4096x2x128
  slices_S4096x2x128_o0_0_0_S4096x1x128 : S4096x2x128.Slices ![0, 0, 0] S4096x1x128
  shapeCasts_S4096x1x128_S4096x128 : S4096x1x128.ShapeCasts S4096x128
  slices_S4096x2x128_o0_1_0_S4096x1x128 : S4096x2x128.Slices ![0, 1, 0] S4096x1x128
  shapeCasts_S4096x128_S128x4096 : S4096x128.ShapeCasts S128x4096
  inb_S128x4096_S128x4096_0_0 : ∀ a, (![0, 0] : Fin 2 → Nat) a + S128x4096.size a ≤ S128x4096.size a
  h_S128x4096 : 0 < S128x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)

variable [Facts₀]

abbrev win0_0 : Pipeline.Window sig grid0 :=
  Pipeline.Window.ofSpec (Memref.whole main_v2) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096x2 : Shape := ⟨3, ![4096, 4096, 2]⟩
abbrev S16777216x2 : Shape := ⟨2, ![16777216, 2]⟩
abbrev S_ : Shape := ⟨0, ![]⟩
abbrev S16777216 : Shape := ⟨1, ![16777216]⟩
abbrev S16777216x1 : Shape := ⟨2, ![16777216, 1]⟩
abbrev S4096x4096 : Shape := ⟨2, ![4096, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4096x4096x2, .f32⟩
  | .hbm, ⟨1, _⟩ => ⟨S16777216x2, .f32⟩
  | .hbm, ⟨2, _⟩ => ⟨S16777216x2, .f32⟩
  | .hbm, ⟨3, _⟩ => ⟨S_, .f32⟩
  | .hbm, ⟨4, _⟩ => ⟨S16777216x2, .f32⟩
  | .hbm, ⟨5, _⟩ => ⟨S16777216x2, .f32⟩
  | .hbm, ⟨6, _⟩ => ⟨S16777216x2, .f32⟩
  | .hbm, ⟨7, _⟩ => ⟨S16777216x2, .f32⟩
  | .hbm, ⟨8, _⟩ => ⟨S_, .f32⟩
  | .hbm, ⟨9, _⟩ => ⟨S16777216x2, .f32⟩
  | .hbm, ⟨10, _⟩ => ⟨S16777216x2, .f32⟩
  | .hbm, ⟨11, _⟩ => ⟨S16777216x2, .f32⟩
  | .hbm, ⟨12, _⟩ => ⟨S16777216x2, .f32⟩
  | .hbm, ⟨13, _⟩ => ⟨S16777216x2, .f32⟩
  | .hbm, ⟨14, _⟩ => ⟨S_, .f32⟩
  | .hbm, ⟨15, _⟩ => ⟨S16777216x2, .f32⟩
  | .hbm, ⟨16, _⟩ => ⟨S16777216x2, .f32⟩
  | .hbm, ⟨17, _⟩ => ⟨S_, .f32⟩
  | .hbm, ⟨18, _⟩ => ⟨S16777216, .f32⟩
  | .hbm, ⟨19, _⟩ => ⟨S_, .f32⟩
  | .hbm, ⟨20, _⟩ => ⟨S16777216, .f32⟩
  | .hbm, ⟨21, _⟩ => ⟨S16777216, .f32⟩
  | .hbm, ⟨22, _⟩ => ⟨S16777216x1, .f32⟩
  | .hbm, ⟨23, _⟩ => ⟨S16777216x2, .f32⟩
  | .hbm, ⟨24, _⟩ => ⟨S16777216x2, .f32⟩
  | .hbm, ⟨25, _⟩ => ⟨S16777216x2, .f32⟩
  | .hbm, ⟨26, _⟩ => ⟨S_, .f32⟩
  | .hbm, ⟨27, _⟩ => ⟨S16777216, .f32⟩
  | .hbm, ⟨28, _⟩ => ⟨S16777216x1, .f32⟩
  | .hbm, ⟨29, _⟩ => ⟨S16777216x2, .f32⟩
  | .hbm, ⟨30, _⟩ => ⟨S16777216x2, .f32⟩
  | .hbm, ⟨31, _⟩ => ⟨S16777216x1, .f32⟩
  | .hbm, ⟨32, _⟩ => ⟨S16777216, .f32⟩
  | .hbm, ⟨33, _⟩ => ⟨S4096x4096, .f32⟩
  | _, _ => ⟨S4096x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  shapeCasts_S4096x4096x2_S16777216x2 : S4096x4096x2.ShapeCasts S16777216x2
  bcast_S_S16777216x2 : S_.BroadcastsInDim S16777216x2 (![] : Fin 0 → Fin S16777216x2.rank)
  reducesTo_S16777216x2_S16777216_d1 : S16777216x2.ReducesTo [1] S16777216
  h_S_ : 0 < S_.numel
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S16777216x1_S16777216x2_0_1 : S16777216x1.BroadcastsInDim S16777216x2 (![0, 1] : Fin 2 → Fin S16777216x2.rank)
  slices_S16777216x2_S16777216x1_0_0 : S16777216x2.Slices ![0, 0] S16777216x1
  shapeCasts_S16777216x1_S16777216 : S16777216x1.ShapeCasts S16777216
  shapeCasts_S16777216_S4096x4096 : S16777216.ShapeCasts S4096x4096

variable [Facts₀]

class Facts : Prop extends Facts₀ where

variable [Facts]
-- ==== Proof.PairLaw.lean ====
/-
  The mathematics of one output entry, on the extended reals.

  Each output entry depends on one PAIR of channels. Channel k has a logit g_k and a uniform
  number u_k; its perturbed logit is  y_k = g_k - log(-log(u_k + c) + c)  with c the shared offset.
  The kernel computes the logistic function of (y_0 - y_1) / 10 (as a product with one tenth);
  the reference computes the first entry of the two-term softmax of (y_0 / 10, y_1 / 10), shifted
  by the pair's maximum M:  exp(y_0/10 - M) / (exp(y_0/10 - M) + exp(y_1/10 - M)).

  Where both logarithms are taken of positive numbers every y_k is a real number, the shift M
  cancels between numerator and denominator, and both sides are 1 / (1 + exp((y_1 - y_0)/10)).
  Outside that domain a logarithm answers an infinity and the two spellings part (the softmax
  meets 0/0), which is why the law is stated under the two positivity conditions.
-/
import Idealize.ShloMosaic.PureOps.Ideal
import Idealize.ShloMosaic.PureOps.Ideal.Laws

noncomputable section

namespace Cert.GumbelPair

open Idealize.ShloMosaic

/-- The perturbed logit as the kernel spells it: each negation is a subtraction from zero. -/
def logitSub (c g u : EReal) : EReal := g + (0 - Ideal.log ((0 - Ideal.log (u + c)) + c))

/-- The perturbed logit as the reference spells it, with negations. -/
def logitNeg (c g u : EReal) : EReal := g + -(Ideal.log (-(Ideal.log (u + c)) + c))

/-- Subtracting from zero is negating, on every extended real: the two spellings are one function. -/
theorem logitSub_eq_logitNeg (c g u : EReal) : logitSub c g u = logitNeg c g u := by
  unfold logitSub logitNeg
  rw [zero_sub, zero_sub]

/-- The kernel's value of an entry: the logistic function of the scaled difference of the pair's
    perturbed logits, the scale a factor t (one tenth). -/
def kernelEntry (c t g0 g1 u0 u1 : EReal) : EReal :=
  Ideal.logistic ((logitSub c g0 u0 - logitSub c g1 u1) * t)

/-- The reference's value of an entry: the first component of the pair's softmax at temperature
    ten, shifted by the pair's maximum. -/
def referenceEntry (c g0 g1 u0 u1 : EReal) : EReal :=
  Ideal.div
    (Ideal.exp (Ideal.div (logitNeg c g0 u0) ((10 : ℝ) : EReal)
      - max (Ideal.div (logitNeg c g0 u0) ((10 : ℝ) : EReal)) (Ideal.div (logitNeg c g1 u1) ((10 : ℝ) : EReal))))
    (Ideal.exp (Ideal.div (logitNeg c g0 u0) ((10 : ℝ) : EReal)
        - max (Ideal.div (logitNeg c g0 u0) ((10 : ℝ) : EReal)) (Ideal.div (logitNeg c g1 u1) ((10 : ℝ) : EReal)))
      + Ideal.exp (Ideal.div (logitNeg c g1 u1) ((10 : ℝ) : EReal)
        - max (Ideal.div (logitNeg c g0 u0) ((10 : ℝ) : EReal)) (Ideal.div (logitNeg c g1 u1) ((10 : ℝ) : EReal))))

/-- Inside the logarithms' domain the perturbed logit of finite inputs is a real number. -/
theorem logitNeg_real (c g u : ℝ) (h1 : (0 : EReal) < (u : EReal) + (c : EReal))
    (h2 : (0 : EReal) < -(Ideal.log ((u : EReal) + (c : EReal))) + (c : EReal)) :
    ∃ y : ℝ, logitNeg (c : EReal) (g : EReal) (u : EReal) = (y : EReal) := by
  unfold logitNeg
  rw [← EReal.coe_add] at h1 h2 ⊢
  have hw : 0 < u + c := EReal.coe_pos.1 h1
  rw [Ideal.log_coe, if_neg (not_le.2 hw), ← EReal.coe_neg, ← EReal.coe_add] at h2 ⊢
  have hb : 0 < -Real.log (u + c) + c := EReal.coe_pos.1 h2
  rw [Ideal.log_coe, if_neg (not_le.2 hb), ← EReal.coe_neg, ← EReal.coe_add]
  exact ⟨_, rfl⟩

/-- For real perturbed logits the shifted two-term softmax IS the logistic function of the scaled
    difference: the shift by the maximum cancels. -/
theorem softmax_pair_eq_logistic (y0 y1 : ℝ) :
    Ideal.div
      (Ideal.exp (Ideal.div (y0 : EReal) ((10 : ℝ) : EReal)
        - max (Ideal.div (y0 : EReal) ((10 : ℝ) : EReal)) (Ideal.div (y1 : EReal) ((10 : ℝ) : EReal))))
      (Ideal.exp (Ideal.div (y0 : EReal) ((10 : ℝ) : EReal)
          - max (Ideal.div (y0 : EReal) ((10 : ℝ) : EReal)) (Ideal.div (y1 : EReal) ((10 : ℝ) : EReal)))
        + Ideal.exp (Ideal.div (y1 : EReal) ((10 : ℝ) : EReal)
          - max (Ideal.div (y0 : EReal) ((10 : ℝ) : EReal)) (Ideal.div (y1 : EReal) ((10 : ℝ) : EReal))))
      = Ideal.logistic (((y0 : EReal) - (y1 : EReal)) * ((1 / 10 : ℝ) : EReal)) := by
  have e0 : Ideal.div (y0 : EReal) ((10 : ℝ) : EReal) = ((y0 / 10 : ℝ) : EReal) := by
    rw [Ideal.div_coe (by norm_num), ← EReal.coe_mul]; congr 1; ring
  have e1 : Ideal.div (y1 : EReal) ((10 : ℝ) : EReal) = ((y1 / 10 : ℝ) : EReal) := by
    rw [Ideal.div_coe (by norm_num), ← EReal.coe_mul]; congr 1; ring
  have em : max ((y0 / 10 : ℝ) : EReal) ((y1 / 10 : ℝ) : EReal) = ((max (y0 / 10) (y1 / 10) : ℝ) : EReal) :=
    (EReal.coe_strictMono.monotone.map_max).symm
  rw [e0, e1, em, ← EReal.coe_sub, ← EReal.coe_sub, Ideal.exp_coe, Ideal.exp_coe, ← EReal.coe_add]
  have hpos : (0 : ℝ) < Real.exp (y0 / 10 - max (y0 / 10) (y1 / 10)) + Real.exp (y1 / 10 - max (y0 / 10) (y1 / 10)) := by
    positivity
  rw [Ideal.div_coe hpos.ne', ← EReal.coe_mul, ← EReal.coe_sub, ← EReal.coe_mul, Ideal.logistic_coe]
  congr 1
  have hB : Real.exp (y1 / 10 - max (y0 / 10) (y1 / 10))
      = Real.exp (y0 / 10 - max (y0 / 10) (y1 / 10)) * Real.exp (-((y0 - y1) * (1 / 10))) := by
    rw [← Real.exp_add]; congr 1; ring
  rw [hB]
  have hA : Real.exp (y0 / 10 - max (y0 / 10) (y1 / 10)) ≠ 0 := (Real.exp_pos _).ne'
  have hE : (1 : ℝ) + Real.exp (-((y0 - y1) * (1 / 10))) ≠ 0 := by positivity
  field_simp

/-- THE LAW OF AN ENTRY: for finite logits and uniform numbers inside the logarithms' domain the
    reference's shifted softmax entry is the kernel's logistic of the scaled difference. -/
theorem referenceEntry_eq_kernelEntry (c g0 g1 u0 u1 : ℝ)
    (h0 : (0 : EReal) < (u0 : EReal) + (c : EReal))
    (h0' : (0 : EReal) < -(Ideal.log ((u0 : EReal) + (c : EReal))) + (c : EReal))
    (h1 : (0 : EReal) < (u1 : EReal) + (c : EReal))
    (h1' : (0 : EReal) < -(Ideal.log ((u1 : EReal) + (c : EReal))) + (c : EReal)) :
    referenceEntry (c : EReal) (g0 : EReal) (g1 : EReal) (u0 : EReal) (u1 : EReal)
      = kernelEntry (c : EReal) ((1 / 10 : ℝ) : EReal) (g0 : EReal) (g1 : EReal) (u0 : EReal) (u1 : EReal) := by
  obtain ⟨y0, hy0⟩ := logitNeg_real c g0 u0 h0 h0'
  obtain ⟨y1, hy1⟩ := logitNeg_real c g1 u1 h1 h1'
  unfold referenceEntry kernelEntry
  rw [logitSub_eq_logitNeg, logitSub_eq_logitNeg, hy0, hy1]
  exact softmax_pair_eq_logistic y0 y1

end Cert.GumbelPair

end
-- ==== Proof.Spec.lean ====
/-
  The result as ONE function of the two argument arrays.

  Entry (R, C) of the 4096 x 4096 result depends on the pair at flat position R * 4096 + C: the two
  logits at (R, C, 0) and (R, C, 1) and the two uniform numbers at (R * 4096 + C, 0) and
  (R * 4096 + C, 1). The function below is the kernel's spelling of it; the scalar law says the
  reference's spelling is the same number inside the logarithms' domain.
-/
import proofs.«148480_g27504970564024_cont_9to1_2017_8_alg».proof.Proof.PairLaw
import Idealize.ShloMosaic.Lib.ValueIdx

noncomputable section

namespace Cert.GumbelPair

open Idealize.ShloMosaic Idealize.ShloMosaic.ValueIdx

/-- The flat position of the pair behind entry (R, C). -/
def pairIdx (R C : Fin 4096) : Fin 16777216 :=
  ⟨R.val * 4096 + C.val, by have := R.isLt; have := C.isLt; omega⟩

theorem pairIdx_val (R C : Fin 4096) : (pairIdx R C).val = R.val * 4096 + C.val := rfl

/-- The whole result: at every entry the logistic of the scaled difference of the pair's perturbed
    logits; c is the offset under the logarithms and t the scale. -/
def resultOf (c t : EReal) (gm : (⟨3, ![4096, 4096, 2]⟩ : Shape).Idx → EReal)
    (un : (⟨2, ![16777216, 2]⟩ : Shape).Idx → EReal) : (⟨2, ![4096, 4096]⟩ : Shape).Idx → EReal :=
  fun j => kernelEntry c t (gm (ix3 (j 0) (j 1) 0)) (gm (ix3 (j 0) (j 1) 1))
    (un (ix2 (pairIdx (j 0) (j 1)) 0)) (un (ix2 (pairIdx (j 0) (j 1)) 1))

theorem resultOf_apply (c t : EReal) (gm : (⟨3, ![4096, 4096, 2]⟩ : Shape).Idx → EReal)
    (un : (⟨2, ![16777216, 2]⟩ : Shape).Idx → EReal) (R C : Fin 4096) :
    resultOf c t gm un (ix2 R C) = kernelEntry c t (gm (ix3 R C 0)) (gm (ix3 R C 1))
      (un (ix2 (pairIdx R C) 0)) (un (ix2 (pairIdx R C) 1)) := rfl

end Cert.GumbelPair

end
-- ==== Proof.KernelEntry.lean ====
/-
  The kernel body, read at one entry of its output block.

  The body loads a block of 8192 rows of 128 lanes from each input. Consecutive rows are the two
  channels of one pair: row 2q holds channel 0 and row 2q + 1 channel 1 of pair q of the block
  (4096 pairs), lane by lane. It perturbs every element, views the rows as 4096 x 2 x 128, takes
  the two channel slices, subtracts, scales, applies the logistic function, and lays the
  4096 x 128 result out as the 128 x 4096 output block: entry (r, C) of the block is pair
  q = 32 r + C / 128 at lane C mod 128.
-/
import proofs.«148480_g27504970564024_cont_9to1_2017_8_alg».proof.Proof.Gen.KernelIdeal.Skeleton
import proofs.«148480_g27504970564024_cont_9to1_2017_8_alg».proof.Proof.PairLaw
import Idealize.ShloMosaic.Lib.ValueIdx
import Idealize.ShloMosaic.Lib.Pipeline.Value

noncomputable section

namespace Cert.GumbelPair.Kernel

open Cert.KernelIdeal Cert.KernelIdeal.Gen
open Idealize.ShloMosaic Idealize.ShloMosaic.ValueIdx

/-- The pair of the block behind entry (r, C) of the output block. -/
def pairInBlock (r : Fin 128) (C : Fin 4096) : Fin 4096 :=
  ⟨r.val * 32 + C.val / 128, by have := r.isLt; have := C.isLt; omega⟩

/-- The lane behind column C. -/
def lane (C : Fin 4096) : Fin 128 := ⟨C.val % 128, Nat.mod_lt _ (by decide)⟩

/-- The block row holding channel ch of the pair behind entry (r, C). -/
def rowInBlock (r : Fin 128) (C : Fin 4096) (ch : Fin 2) : Fin 8192 :=
  ⟨2 * (pairInBlock r C).val + ch.val, by have := (pairInBlock r C).isLt; have := ch.isLt; omega⟩

section Unzip
variable {α : Type}

/-- Rows viewed as (pair, channel, lane): the channel-0 slice, flattened, reads the even rows. -/
theorem evenRow (z : S8192x128.Idx → α) (h1 : S8192x128.ShapeCasts S4096x2x128)
    (h2 : S4096x2x128.Slices ![0, 0, 0] S4096x1x128) (h3 : S4096x1x128.ShapeCasts S4096x128)
    (q : Fin 4096) (l : Fin 128) :
    shapeCast S4096x128 (extractStridedSlice S4096x1x128 ![0, 0, 0] (shapeCast S4096x2x128 z h1) h2) h3 (ix2 q l)
      = z (ix2 (⟨2 * q.val + 0, by have := q.isLt; omega⟩ : Fin 8192) l) := by
  have hq := q.isLt; have hl := l.isLt
  refine (shapeCast_apply _ h3 (ix2 q l) (ix3 q (0 : Fin 1) l) ?_).trans ?_
  · rw [Shape.rowMajor_val_three, Shape.rowMajor_val_two]
    show (q.val * 1 + 0) * 128 + l.val = q.val * 128 + l.val
    omega
  refine (extractStridedSlice_apply ![0, 0, 0] _ h2 (ix3 q (0 : Fin 1) l) (ix3 q (0 : Fin 2) l) ?_).trans ?_
  · intro a
    match a with
    | ⟨0, _⟩ => show q.val = 0 + q.val; omega
    | ⟨1, _⟩ => show 0 = 0 + 0; rfl
    | ⟨2, _⟩ => show l.val = 0 + l.val; omega
  refine shapeCast_apply z h1 (ix3 q (0 : Fin 2) l) _ ?_
  rw [Shape.rowMajor_val_two, Shape.rowMajor_val_three]
  show (2 * q.val + 0) * 128 + l.val = (q.val * 2 + 0) * 128 + l.val
  omega

/-- The channel-1 slice, flattened, reads the odd rows. -/
theorem oddRow (z : S8192x128.Idx → α) (h1 : S8192x128.ShapeCasts S4096x2x128)
    (h2 : S4096x2x128.Slices ![0, 1, 0] S4096x1x128) (h3 : S4096x1x128.ShapeCasts S4096x128)
    (q : Fin 4096) (l : Fin 128) :
    shapeCast S4096x128 (extractStridedSlice S4096x1x128 ![0, 1, 0] (shapeCast S4096x2x128 z h1) h2) h3 (ix2 q l)
      = z (ix2 (⟨2 * q.val + 1, by have := q.isLt; omega⟩ : Fin 8192) l) := by
  have hq := q.isLt; have hl := l.isLt
  refine (shapeCast_apply _ h3 (ix2 q l) (ix3 q (0 : Fin 1) l) ?_).trans ?_
  · rw [Shape.rowMajor_val_three, Shape.rowMajor_val_two]
    show (q.val * 1 + 0) * 128 + l.val = q.val * 128 + l.val
    omega
  refine (extractStridedSlice_apply ![0, 1, 0] _ h2 (ix3 q (0 : Fin 1) l) (ix3 q (1 : Fin 2) l) ?_).trans ?_
  · intro a
    match a with
    | ⟨0, _⟩ => show q.val = 0 + q.val; omega
    | ⟨1, _⟩ => show 1 = 1 + 0; rfl
    | ⟨2, _⟩ => show l.val = 0 + l.val; omega
  refine shapeCast_apply z h1 (ix3 q (1 : Fin 2) l) _ ?_
  rw [Shape.rowMajor_val_two, Shape.rowMajor_val_three]
  show (2 * q.val + 1) * 128 + l.val = (q.val * 2 + 1) * 128 + l.val
  omega

end Unzip

/-- The kernel's scale factor: the literal it multiplies by, named one tenth. -/
abbrev scale : EReal := Named.named (F := Ideal) Cert.KernelIdeal.κ "inv_10" (φ := .f32) 0x3DCCCCCD#32

/-- ENTRY (r, C) OF THE BODY'S OUTPUT BLOCK is the logistic of the scaled difference of the perturbed
    logits of the pair behind it, read from the two input blocks at that pair's two rows. -/
theorem payload_at (x0 x1 : Vec Ideal S8192x128 .f32) (r : Fin 128) (C : Fin 4096) :
    k0_pay1 (F := Ideal) x0 x1 (ix2 r C)
      = kernelEntry (Ideal.ofBits .f32 0x1E3CE508#32) scale
          (x0 (ix2 (rowInBlock r C 0) (lane C))) (x0 (ix2 (rowInBlock r C 1) (lane C)))
          (x1 (ix2 (rowInBlock r C 0) (lane C))) (x1 (ix2 (rowInBlock r C 1) (lane C))) := by
  have hr := r.isLt; have hC := C.isLt
  unfold k0_pay1
  refine (shapeCast_apply _ _ (ix2 r C) (ix2 (pairInBlock r C) (lane C)) ?_).trans ?_
  · rw [Shape.rowMajor_val_two, Shape.rowMajor_val_two]
    show (r.val * 32 + C.val / 128) * 128 + C.val % 128 = r.val * 4096 + C.val
    omega
  show Ideal.logistic ((shapeCast S4096x128 _ _ (ix2 (pairInBlock r C) (lane C))
      - shapeCast S4096x128 _ _ (ix2 (pairInBlock r C) (lane C))) * _) = _
  rw [evenRow, oddRow]
  simp only [shapeCast_self, Ideal.ofBits_def, Ideal.ofBits_zero_f32]
  rfl

end Cert.GumbelPair.Kernel

end
-- ==== Proof.NativeView.lean ====
/-
  The arrays the kernel is launched on, read at an index.

  Before the kernel runs, each argument is re-laid as 262144 rows of 128 lanes: the 4096 x 4096 x 2
  data is split as (R, T, l, ch) with column 128 T + l, the channel is moved in front of the lane,
  and (R, T, ch) are flattened into one row index 64 R + 2 T + ch. So row 64 R + 2 (C / 128) + ch,
  lane C mod 128 of the re-laid logits is the logit at (R, C, ch), and of the re-laid uniform
  numbers the uniform number at flat pair position R * 4096 + C, channel ch.
-/
import proofs.«148480_g27504970564024_cont_9to1_2017_8_alg».proof.Proof.Gen.KernelIdeal.Frame
import proofs.«148480_g27504970564024_cont_9to1_2017_8_alg».proof.Proof.Spec
import proofs.«148480_g27504970564024_cont_9to1_2017_8_alg».proof.Proof.KernelEntry
import Idealize.ShloMosaic.Lib.ValueIdx
import Idealize.ShloMosaic.Lib.Pipeline.Value
import Idealize.ShloMosaic.Lib.StableHlo.Run

noncomputable section

namespace Cert.GumbelPair.Kernel

open Cert.KernelIdeal Cert.KernelIdeal.Gen
open Idealize.ShloMosaic Idealize.ShloMosaic.TcCoe Idealize.SL.Sem Idealize.ShloMosaic.ValueIdx
open Cert.GumbelPair

/-- The row of the re-laid arrays holding channel ch of the pair behind entry (R, C). -/
def nativeRow (R C : Fin 4096) (ch : Fin 2) : Fin 262144 :=
  ⟨R.val * 64 + (C.val / 128) * 2 + ch.val, by have := R.isLt; have := C.isLt; have := ch.isLt; omega⟩

section Relayout
variable {α : Type}

/-- The re-laid logits at the pair's row and lane are the logit at (R, C, ch). -/
theorem native_logits (x : S4096x4096x2.Idx → α) (h1 : S4096x4096x2.ShapeCasts S4096x32x128x2)
    (h2 : S4096x32x128x2.Transposes [0, 1, 3, 2] S4096x32x2x128) (h3 : S4096x32x2x128.ShapeCasts S262144x128)
    (R C : Fin 4096) (ch : Fin 2) :
    shapeCast S262144x128 (transpose S4096x32x2x128 [0, 1, 3, 2] (shapeCast S4096x32x128x2 x h1) h2) h3
        (ix2 (nativeRow R C ch) (lane C))
      = x (ix3 R C ch) := by
  have hR := R.isLt; have hC := C.isLt; have hch := ch.isLt
  refine (shapeCast_apply _ h3 (ix2 (nativeRow R C ch) (lane C))
    (ix4 R (⟨C.val / 128, by omega⟩ : Fin 32) ch (lane C)) ?_).trans ?_
  · rw [Shape.rowMajor_val_four, Shape.rowMajor_val_two]
    show ((R.val * 32 + C.val / 128) * 2 + ch.val) * 128 + C.val % 128
      = (R.val * 64 + (C.val / 128) * 2 + ch.val) * 128 + C.val % 128
    omega
  refine (transpose_apply [0, 1, 3, 2] _ h2 (ix4 R (⟨C.val / 128, by omega⟩ : Fin 32) ch (lane C))
    (ix4 R (⟨C.val / 128, by omega⟩ : Fin 32) (lane C) ch) ?_).trans ?_
  · intro b
    match b with
    | ⟨0, _⟩ => rfl
    | ⟨1, _⟩ => rfl
    | ⟨2, _⟩ => rfl
    | ⟨3, _⟩ => rfl
  refine shapeCast_apply x h1 _ (ix3 R C ch) ?_
  rw [Shape.rowMajor_val_three, Shape.rowMajor_val_four]
  show (R.val * 4096 + C.val) * 2 + ch.val = ((R.val * 32 + C.val / 128) * 128 + C.val % 128) * 2 + ch.val
  omega

/-- The re-laid uniform numbers at the pair's row and lane are the uniform number of the pair at flat
    position R * 4096 + C, channel ch. -/
theorem native_uniforms (x : S16777216x2.Idx → α) (h1 : S16777216x2.ShapeCasts S4096x32x128x2)
    (h2 : S4096x32x128x2.Transposes [0, 1, 3, 2] S4096x32x2x128) (h3 : S4096x32x2x128.ShapeCasts S262144x128)
    (R C : Fin 4096) (ch : Fin 2) :
    shapeCast S262144x128 (transpose S4096x32x2x128 [0, 1, 3, 2] (shapeCast S4096x32x128x2 x h1) h2) h3
        (ix2 (nativeRow R C ch) (lane C))
      = x (ix2 (pairIdx R C) ch) := by
  have hR := R.isLt; have hC := C.isLt; have hch := ch.isLt
  refine (shapeCast_apply _ h3 (ix2 (nativeRow R C ch) (lane C))
    (ix4 R (⟨C.val / 128, by omega⟩ : Fin 32) ch (lane C)) ?_).trans ?_
  · rw [Shape.rowMajor_val_four, Shape.rowMajor_val_two]
    show ((R.val * 32 + C.val / 128) * 2 + ch.val) * 128 + C.val % 128
      = (R.val * 64 + (C.val / 128) * 2 + ch.val) * 128 + C.val % 128
    omega
  refine (transpose_apply [0, 1, 3, 2] _ h2 (ix4 R (⟨C.val / 128, by omega⟩ : Fin 32) ch (lane C))
    (ix4 R (⟨C.val / 128, by omega⟩ : Fin 32) (lane C) ch) ?_).trans ?_
  · intro b
    match b with
    | ⟨0, _⟩ => rfl
    | ⟨1, _⟩ => rfl
    | ⟨2, _⟩ => rfl
    | ⟨3, _⟩ => rfl
  refine shapeCast_apply x h1 _ (ix2 (pairIdx R C) ch) ?_
  rw [Shape.rowMajor_val_two, Shape.rowMajor_val_four]
  show (R.val * 4096 + C.val) * 2 + ch.val = ((R.val * 32 + C.val / 128) * 128 + C.val % 128) * 2 + ch.val
  omega

end Relayout

variable (m : (ℓ : Loc nD τ sig) → Buf (Elt Ideal) ℓ)

/-- The array input window 0 stages: the re-laid logits. -/
theorem V_logits (c : Dev nD) :
    (V m c main_v2 : S262144x128.Idx → EReal)
      = shapeCast S262144x128 (transpose S4096x32x2x128 [0, 1, 3, 2]
          (shapeCast S4096x32x128x2 (m ((c : Thread nD τ).loc main_arg0)) shapeCasts_S4096x4096x2_S4096x32x128x2)
          transposes_S4096x32x128x2_S4096x32x2x128_0_1_3_2) shapeCasts_S4096x32x2x128_S262144x128 := by
  dsimp only [Gen.V, Gen.hostOps0]; after_results; rfl

/-- The array input window 1 stages: the re-laid uniform numbers. -/
theorem V_uniforms (c : Dev nD) :
    (V m c main_v5 : S262144x128.Idx → EReal)
      = shapeCast S262144x128 (transpose S4096x32x2x128 [0, 1, 3, 2]
          (shapeCast S4096x32x128x2 (m ((c : Thread nD τ).loc main_arg1)) shapeCasts_S16777216x2_S4096x32x128x2)
          transposes_S4096x32x128x2_S4096x32x2x128_0_1_3_2) shapeCasts_S4096x32x2x128_S262144x128 := by
  dsimp only [Gen.V, Gen.hostOps0]; after_results; rfl

end Cert.GumbelPair.Kernel

end
-- ==== Proof.Blocks.lean ====
/-
  From blocks to the whole array.

  Grid point t (of 32) stages rows 8192 t .. 8192 t + 8191 of each re-laid input and writes rows
  128 t .. 128 t + 127 of the 4096 x 4096 output, all 4096 columns. Entry (r, C) of its output block
  is global entry (128 t + r, C); the block rows 2 (32 r + C / 128) + ch it reads are the global rows
  64 (128 t + r) + 2 (C / 128) + ch of the re-laid inputs, which hold the logits at (128 t + r, C, ch)
  and the uniform numbers of flat pair (128 t + r) * 4096 + C. So every point writes back its block
  of ONE function of the two argument arrays, the 32 blocks cover the output, and the output array
  ends as that function.
-/
import proofs.«148480_g27504970564024_cont_9to1_2017_8_alg».proof.Proof.Gen.KernelIdeal.Value
import proofs.«148480_g27504970564024_cont_9to1_2017_8_alg».proof.Proof.NativeView
import Idealize.ShloMosaic.Lib.ValueIdx
import Idealize.ShloMosaic.Lib.Pipeline.Value

set_option maxRecDepth 16384

noncomputable section

namespace Cert.GumbelPair.Kernel

open Cert.KernelIdeal Cert.KernelIdeal.Gen
open Idealize.ShloMosaic Idealize.ShloMosaic.TcCoe Idealize.SL.Sem Idealize.ShloMosaic.ValueIdx
open Idealize.ShloMosaic.Pipeline (Dat)
open Cert.GumbelPair

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 32 grid points: every window's block index is (t, 0). -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 32 := by
  have h : t.val < grid0.N := t.isLt
  rw [N_0] at h
  exact h

/-- The global output row behind row r of point t's block. -/
def globalRow (t : Fin cfg0.N) (r : Fin 128) : Fin 4096 :=
  ⟨t.val * 128 + r.val, by have := point_lt t; have := r.isLt; omega⟩

/-- The result array as the kernel computes it, of the launch memory's two argument arrays. -/
abbrev kernelResult (c : Dev nD) : S4096x4096.Idx → EReal :=
  resultOf (Ideal.ofBits .f32 0x1E3CE508#32) scale
    (m ((c : Thread nD τ).loc main_arg0)) (m ((c : Thread nD τ).loc main_arg1))

/-- Point t's block of the re-laid logits, at the rows of the pair behind block entry (r, C). -/
theorem logits_block (c : Dev nD) (t : Fin cfg0.N) (r : Fin 128) (C : Fin 4096) (ch : Fin 2) :
    iblk m c 0 t (ix2 (rowInBlock r C ch) (lane C))
      = m ((c : Thread nD τ).loc main_arg0) (ix3 (globalRow t r) C ch) := by
  obtain ⟨e00, e01, -, -, -, -⟩ := index_facts t
  have ht := point_lt t; have hr := r.isLt; have hC := C.isLt; have hch := ch.isLt
  show V m c main_v2 (((cfg0.win 0).blk t).view.emb (ix2 (rowInBlock r C ch) (lane C))) = _
  have hemb : ((cfg0.win 0).blk t).view.emb (ix2 (rowInBlock r C ch) (lane C))
      = ix2 (nativeRow (globalRow t r) C ch) (lane C) := by
    funext a; apply Fin.ext
    match a with
    | ⟨0, _⟩ =>
      show win0_0.index t (0 : Fin 2) * 8192 + 1 * (2 * (r.val * 32 + C.val / 128) + ch.val)
        = (t.val * 128 + r.val) * 64 + (C.val / 128) * 2 + ch.val
      rw [e00]; omega
    | ⟨1, _⟩ =>
      show win0_0.index t (1 : Fin 2) * 128 + 1 * (C.val % 128) = C.val % 128
      rw [e01]; omega
  rw [hemb, V_logits, native_logits]

/-- Point t's block of the re-laid uniform numbers, at the rows of the pair behind block entry (r, C). -/
theorem uniforms_block (c : Dev nD) (t : Fin cfg0.N) (r : Fin 128) (C : Fin 4096) (ch : Fin 2) :
    iblk m c 1 t (ix2 (rowInBlock r C ch) (lane C))
      = m ((c : Thread nD τ).loc main_arg1) (ix2 (pairIdx (globalRow t r) C) ch) := by
  obtain ⟨-, -, e10, e11, -, -⟩ := index_facts t
  have ht := point_lt t; have hr := r.isLt; have hC := C.isLt; have hch := ch.isLt
  show V m c main_v5 (((cfg0.win 1).blk t).view.emb (ix2 (rowInBlock r C ch) (lane C))) = _
  have hemb : ((cfg0.win 1).blk t).view.emb (ix2 (rowInBlock r C ch) (lane C))
      = ix2 (nativeRow (globalRow t r) C ch) (lane C) := by
    funext a; apply Fin.ext
    match a with
    | ⟨0, _⟩ =>
      show win0_1.index t (0 : Fin 2) * 8192 + 1 * (2 * (r.val * 32 + C.val / 128) + ch.val)
        = (t.val * 128 + r.val) * 64 + (C.val / 128) * 2 + ch.val
      rw [e10]; omega
    | ⟨1, _⟩ =>
      show win0_1.index t (1 : Fin 2) * 128 + 1 * (C.val % 128) = C.val % 128
      rw [e11]; omega
  rw [hemb, V_uniforms, native_uniforms]

/-- WHAT POINT t WRITES BACK is its block of the result function. -/
theorem flushed_eq (c : Dev nD) (t : Fin cfg0.N) :
    (dats m 0 c).flushed 2 t = ((cfg0.win 2).blk t).view.read (Elt Ideal) (kernelResult m c) := by
  rw [Cert.KernelIdeal.Value.flushed2]
  unfold out0_2
  rw [View.canon_unit_zero zero_offsets]
  simp only [View.ld_unit_zero (S := S8192x128) zero_offsets]
  funext j
  obtain ⟨r, C, rfl⟩ : ∃ (r : Fin 128) (C : Fin 4096), j = ix2 r C := ⟨j 0, j 1, eq_ix2 j⟩
  obtain ⟨-, -, -, -, e20, e21⟩ := index_facts t
  have ht := point_lt t; have hr := r.isLt; have hC := C.isLt
  show k0_pay1 (F := Ideal) (iblk m c 0 t) (iblk m c 1 t) (ix2 r C)
    = kernelResult m c (((cfg0.win 2).blk t).view.emb (ix2 r C))
  have hemb : ((cfg0.win 2).blk t).view.emb (ix2 r C) = ix2 (globalRow t r) C := by
    funext a; apply Fin.ext
    match a with
    | ⟨0, _⟩ =>
      show win0_2.index t (0 : Fin 2) * 128 + 1 * r.val = t.val * 128 + r.val
      rw [e20]; omega
    | ⟨1, _⟩ =>
      show win0_2.index t (1 : Fin 2) * 4096 + 1 * C.val = C.val
      rw [e21]; omega
  refine (payload_at (iblk m c 0 t) (iblk m c 1 t) r C).trans ?_
  rw [logits_block m c t r C 0, logits_block m c t r C 1, uniforms_block m c t r C 0, uniforms_block m c t r C 1, hemb]
  rfl

/-- An index of the output is in point t's block iff each coordinate is in the block's range. -/
theorem mem_block (t : Fin cfg0.N) (i : S4096x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v6).slice (win0_2.rect t)).set ↔ _
  rw [View.set_slice_whole, Rect.mem_set_unit]
  exact Iff.rfl

/-- Every output index lies in the block of the point its row selects: row R is written by point R / 128. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : (i 0).val / 128 < cfg0.N := by
    show (i 0).val / 128 < grid0.N
    rw [N_0]; omega
  refine ⟨⟨(i 0).val / 128, hN⟩, flush0_2 _, ?_⟩
  obtain ⟨-, -, -, -, e20, e21⟩ := index_facts ⟨(i 0).val / 128, hN⟩
  rw [mem_block]
  intro a
  match a with
  | ⟨0, _⟩ =>
    show win0_2.index ⟨(i 0).val / 128, hN⟩ (0 : Fin 2) * 128 ≤ (i 0).val
      ∧ (i 0).val < win0_2.index ⟨(i 0).val / 128, hN⟩ (0 : Fin 2) * 128 + 128
    rw [e20]
    show (i 0).val / 128 * 128 ≤ (i 0).val ∧ (i 0).val < (i 0).val / 128 * 128 + 128
    omega
  | ⟨1, _⟩ =>
    show win0_2.index ⟨(i 0).val / 128, hN⟩ (1 : Fin 2) * 4096 ≤ (i 1).val
      ∧ (i 1).val < win0_2.index ⟨(i 0).val / 128, hN⟩ (1 : Fin 2) * 4096 + 4096
    rw [e21]; omega

/-- THE OUTPUT ARRAY after the run is the result function of the two argument arrays. -/
theorem final (c : Dev nD) : (dats m 0 c).arrAt 2 cfg0.N = kernelResult m c :=
  (dats m 0 c).arrAt_eq_of_cover 2 (kernelResult m c) (fun t _ => flushed_eq m c t) covered

/-- The kernel's run re-posted: the result at the result function, the arguments unchanged. -/
theorem run : θ_run defs (onTc (τ := τ) (main (F := Ideal))) ⟨m, fun _ => 0, ρ⟩ fun r => ∀ c : Dev nD,
      r.2.mem ((c : Thread nD τ).loc main_v6) = kernelResult m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.GumbelPair.Kernel

end
-- ==== Proof.Consts.lean ====
/-
  The float literals the two programs spell, as the extended reals their patterns denote.
  The word 10.0 is the real ten, the running maximum's initial word is minus infinity, the bound of
  the finiteness test is plus infinity, and the shared offset 9.99999968e-21 is SOME real number:
  its value is never needed, only that it is finite (the domain conditions carry everything else).
-/
import Idealize.ShloMosaic.PureOps.Ideal
import Idealize.ShloMosaic.PureOps.Ideal.Laws

noncomputable section

namespace Cert.GumbelPair.Consts

open Idealize.ShloMosaic

/-- The word 10.0, the reference's temperature, denotes the real ten. -/
theorem ofBits_ten : Ideal.ofBits .f32 0x41200000#32 = ((10 : ℝ) : EReal) := by
  simp [Ideal.ofBits, Ideal.ieee, -EReal.coe_mul]; norm_num

/-- The initial word of the reference's running maximum denotes minus infinity. -/
theorem ofBits_neg_inf : Ideal.ofBits .f32 0xFF800000#32 = ⊥ := by
  simp [Ideal.ofBits, Ideal.ieee]

/-- The bound of the finiteness test denotes plus infinity. -/
theorem ofBits_pos_inf : Ideal.ofBits .f32 0x7F800000#32 = ⊤ := by
  simp [Ideal.ofBits, Ideal.ieee]

/-- The offset both programs add under each logarithm is a finite number. -/
theorem ofBits_offset_real : ∃ c : ℝ, Ideal.ofBits .f32 0x1E3CE508#32 = (c : EReal) := by
  simp [Ideal.ofBits, Ideal.ieee, -EReal.coe_mul]

end Cert.GumbelPair.Consts

end
-- ==== Proof.RefEntry.lean ====
/-
  The reference, read at one output entry.

  The reference flattens the logits to 16777216 pairs of channels, perturbs every element, divides
  by ten, takes each pair's maximum (a reduce over the channel axis, from minus infinity), subtracts
  it, exponentiates, sums each pair (from zero), divides, keeps channel 0 and lays the column out as
  the 4096 x 4096 matrix. Entry (R, C) of the result therefore reads the pair at flat position
  R * 4096 + C: the two logits at (R, C, 0), (R, C, 1) and the two uniform numbers at
  (R * 4096 + C, 0), (R * 4096 + C, 1) — the shifted softmax entry of the scalar law.
-/
import proofs.«148480_g27504970564024_cont_9to1_2017_8_alg».proof.Proof.Gen.ReferenceIdeal.Read
import proofs.«148480_g27504970564024_cont_9to1_2017_8_alg».proof.Proof.Consts
import proofs.«148480_g27504970564024_cont_9to1_2017_8_alg».proof.Proof.PairLaw
import proofs.«148480_g27504970564024_cont_9to1_2017_8_alg».proof.Proof.Spec
import Idealize.ShloMosaic.Lib.ValueIdx
import Idealize.ShloMosaic.PureOps.Reduce

noncomputable section

namespace Cert.GumbelPair.Reference

open Cert.ReferenceIdeal Cert.ReferenceIdeal.Gen Cert.ReferenceIdeal.Read
open Idealize.ShloMosaic Idealize.ShloMosaic.ValueIdx
open Cert.GumbelPair

/-- A fold of a commutative, associative operation over the two channels. -/
theorem fold_two {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- The pair index p with channel k put back on the reduced axis is (p, k). -/
theorem lift_pair (h : S16777216x2.Reduces [1] S16777216) (p : Fin 16777216) (k : Fin (S16777216x2.size 1)) :
    h.lift (ix1 p) k = ix2 p (⟨k.val, k.isLt⟩ : Fin 2) := by
  funext c; apply Fin.ext
  fin_cases c <;> rfl

variable (x0 : FVec Ideal S4096x4096x2 .f32) (x1 : FVec Ideal S16777216x2 .f32)

/-- Element (p, k) of the flattened logits is the logit at (R, C, k), p the flat position of (R, C). -/
theorem flat_logit (R C : Fin 4096) (k : Fin 2) :
    idx_main_v0 (ix2 (pairIdx R C) k) = ix3 R C k := by
  have hR := R.isLt; have hC := C.isLt; have hk := k.isLt
  funext a; apply Fin.ext
  match a with
  | ⟨0, _⟩ => show ((R.val * 4096 + C.val) * 2 + k.val) / 8192 = R.val; omega
  | ⟨1, _⟩ => show ((R.val * 4096 + C.val) * 2 + k.val) / 2 % 4096 = C.val; omega
  | ⟨2, _⟩ => show ((R.val * 4096 + C.val) * 2 + k.val) % 2 = k.val; omega

/-- The scaled perturbed logit of channel k of the pair behind (R, C). -/
theorem scaled_at (R C : Fin 4096) (k : Fin 2) :
    val_main_v11 (F := Ideal) x0 x1 (ix2 (pairIdx R C) k)
      = Ideal.div (logitNeg (Ideal.ofBits .f32 0x1E3CE508#32) (x0 (ix3 R C k)) (x1 (ix2 (pairIdx R C) k))) ((10 : ℝ) : EReal) := by
  rw [val_main_v11_apply, val_main_v10_apply, val_main_cst_1_apply, val_main_v9_apply, val_main_v0_apply, val_main_v8_apply,
    val_main_v7_apply, val_main_v6_apply, val_main_v5_apply, val_main_cst_0_apply, val_main_v4_apply, val_main_v3_apply,
    val_main_v2_apply, val_main_v1_apply, val_main_cst_apply, flat_logit]
  simp only [Ideal.hostDivf_def, Ideal.ofBits_def, Ideal.addf_def, Ideal.hostNegf_def, Ideal.negf_def,
    Ideal.hostUnary_log_def, Consts.ofBits_ten]
  rfl

/-- The pair's maximum: the reduce over the channel axis from minus infinity, then the maximum with
    minus infinity once more, is the larger of the two scaled values. -/
theorem pairMax_at (p : Fin 16777216) :
    val_main_v14 (F := Ideal) x0 x1 (ix1 p)
      = max (val_main_v11 (F := Ideal) x0 x1 (ix2 p 0)) (val_main_v11 (F := Ideal) x0 x1 (ix2 p 1)) := by
  have hR : S16777216x2.Reduces [1] S16777216 := by decide
  rw [val_main_v14_apply, val_main_v13_apply, val_main_cst_3_apply]
  unfold val_main_v12
  rw [Host.reduce_eq_fold_single FloatOps.maximumf _ _ _ hR _]
  have e := fold_two (max : Ideal .f32 → Ideal .f32 → Ideal .f32) (Ideal.ofBits .f32 0xFF800000#32)
    (fun k : Fin 2 => val_main_v11 (F := Ideal) x0 x1 (ix2 p k))
  have hf : (val_main_v11 (F := Ideal) x0 x1 ∘ hR.lift (ix1 p)) = fun k : Fin 2 => val_main_v11 (F := Ideal) x0 x1 (ix2 p k) :=
    funext fun k => congrArg (val_main_v11 (F := Ideal) x0 x1) (lift_pair hR p k)
  refine Eq.trans (congrArg (max (Ideal.ofBits .f32 0xFF800000#32))
    ((congrArg (fun f => Finset.fold max (Ideal.ofBits .f32 0xFF800000#32) f (Finset.univ : Finset (Fin 2))) hf).trans e)) ?_
  rw [Consts.ofBits_neg_inf]
  simp only [max_bot_left, max_bot_right]

/-- The shifted exponential of channel k of pair p. -/
theorem expShift_at (p : Fin 16777216) (k : Fin 2) :
    val_main_v18 (F := Ideal) x0 x1 (ix2 p k)
      = Ideal.exp (val_main_v11 (F := Ideal) x0 x1 (ix2 p k) - val_main_v14 (F := Ideal) x0 x1 (ix1 p)) := by
  have e16 : idx_main_v16 (ix2 p k) = ix2 p (0 : Fin 1) :=
    funext fun a => Fin.ext (by match a with | ⟨0, _⟩ => rfl | ⟨1, _⟩ => rfl)
  have e15 : idx_main_v15 (ix2 p (0 : Fin 1)) = ix1 p :=
    funext fun a => Fin.ext (by match a with | ⟨0, _⟩ => rfl)
  rw [val_main_v18_apply, val_main_v17_apply, val_main_v16_apply, e16, val_main_v15_apply, e15]
  simp only [Ideal.hostUnary_exp_def, Ideal.subf_def]

/-- The pair's sum of shifted exponentials, from zero. -/
theorem expSum_at (p : Fin 16777216) :
    val_main_v19 (F := Ideal) x0 x1 (ix1 p)
      = val_main_v18 (F := Ideal) x0 x1 (ix2 p 0) + val_main_v18 (F := Ideal) x0 x1 (ix2 p 1) := by
  have e19 : ∀ k : Fin 2, idx_main_v19 (ix1 p) k = ix2 p k := fun k =>
    funext fun a => Fin.ext (by match a with | ⟨0, _⟩ => rfl | ⟨1, _⟩ => rfl)
  rw [val_main_v19_apply, Fin.sum_univ_two, e19, e19, val_main_cst_4_apply]
  simp only [Ideal.ofBits_def, Ideal.ofBits_zero_f32, zero_add]

/-- ENTRY (R, C) OF THE REFERENCE'S RESULT is the shifted softmax entry of the pair behind it. -/
theorem entry_at (R C : Fin 4096) :
    val_main_v25 (F := Ideal) x0 x1 (ix2 R C)
      = referenceEntry (Ideal.ofBits .f32 0x1E3CE508#32) (x0 (ix3 R C 0)) (x0 (ix3 R C 1))
          (x1 (ix2 (pairIdx R C) 0)) (x1 (ix2 (pairIdx R C) 1)) := by
  have e25 : idx_main_v25 (ix2 R C) = ix1 (pairIdx R C) :=
    funext fun a => Fin.ext (by match a with | ⟨0, _⟩ => rfl)
  have e24 : idx_main_v24 (ix1 (pairIdx R C)) = ix2 (pairIdx R C) (0 : Fin 1) :=
    funext fun a => Fin.ext (by match a with | ⟨0, _⟩ => exact Nat.div_one _ | ⟨1, _⟩ => rfl)
  have e23 : idx_main_v23 (ix2 (pairIdx R C) (0 : Fin 1)) = ix2 (pairIdx R C) (0 : Fin 2) :=
    funext fun a => Fin.ext (by match a with | ⟨0, _⟩ => rfl | ⟨1, _⟩ => rfl)
  have e21 : idx_main_v21 (ix2 (pairIdx R C) (0 : Fin 2)) = ix2 (pairIdx R C) (0 : Fin 1) :=
    funext fun a => Fin.ext (by match a with | ⟨0, _⟩ => rfl | ⟨1, _⟩ => rfl)
  have e20 : idx_main_v20 (ix2 (pairIdx R C) (0 : Fin 1)) = ix1 (pairIdx R C) :=
    funext fun a => Fin.ext (by match a with | ⟨0, _⟩ => rfl)
  rw [val_main_v25_apply, e25, val_main_v24_apply, e24, val_main_v23_apply, e23, val_main_v22_apply, val_main_v21_apply, e21,
    val_main_v20_apply, e20, expSum_at, expShift_at, expShift_at, pairMax_at, scaled_at, scaled_at]
  simp only [Ideal.hostDivf_def]
  rfl

end Cert.GumbelPair.Reference

end
-- ==== Proof.Domain.lean ====
/-
  The precondition, read back element by element.

  The precondition is one bit: the conjunction of four tests, each holding at EVERY element —
  the logits are finite, the uniform numbers are finite, the argument u + c of the first logarithm
  is positive, and the argument -log(u + c) + c of the second logarithm is positive. A conjunction
  over all elements that came out true held at each element, so each test can be used pointwise:
  finite inputs are real numbers, and both logarithms are taken inside their domain.
-/
import proofs.«148480_g27504970564024_cont_9to1_2017_8_alg».proof.Pre_finite_inputs
import proofs.«148480_g27504970564024_cont_9to1_2017_8_alg».proof.Proof.Gen.Pre_finite_inputs
import proofs.«148480_g27504970564024_cont_9to1_2017_8_alg».proof.Proof.Consts
import Idealize.ShloMosaic.PureOps.Ideal
import Idealize.ShloMosaic.PureOps.Ideal.Laws
import Idealize.ShloMosaic.Lib.ReduceAll
import Idealize.ShloMosaic.Lib.ValueIdx

noncomputable section

namespace Cert.GumbelPair.Domain

open Cert.Pre_finite_inputs Cert.Pre_finite_inputs.Gen
open Idealize.ShloMosaic Idealize.ShloMosaic.ValueIdx

/-- A rank-0 shape has one index. -/
instance : Subsingleton S_.Idx := ⟨fun a b => funext fun d => d.elim0⟩

/-- An extended real whose absolute value is below plus infinity is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The comparison "greater than zero" that came out true says the number is positive. -/
theorem pos_of_gt_zero (x : EReal) (h : Ideal.cmp .ogt x 0 = 1#1) : 0 < x := by
  by_contra hn
  have e : Ideal.cmp .ogt x 0 = 0#1 := by simp [Ideal.cmp, hn]
  rw [e] at h
  exact absurd h (by decide)

/-- What the precondition says of the two argument arrays, pointwise; c is the shared offset. -/
structure InDomain (c : EReal) (a0 : S4096x4096x2.Idx → EReal) (a1 : S16777216x2.Idx → EReal) : Prop where
  logit_real : ∀ i, ∃ r : ℝ, a0 i = (r : EReal)
  uniform_real : ∀ i, ∃ r : ℝ, a1 i = (r : EReal)
  first_log_pos : ∀ i, (0 : EReal) < a1 i + c
  second_log_pos : ∀ i, (0 : EReal) < -(Ideal.log (a1 i + c)) + c

/-- THE PRECONDITION DECODED: where the printed predicate is true, every logit and every uniform
    number is real and both logarithms of every element are taken of positive numbers. -/
theorem inDomain_of_pre (a0 : FVec Ideal S4096x4096x2 .f32) (a1 : FVec Ideal S16777216x2 .f32)
    (h : Cert.Pre_finite_inputs.fn (F := Ideal) a0 a1 = fun _ => 1#1) :
    InDomain (Ideal.ofBits .f32 0x1E3CE508#32) a0 a1 := by
  have h0 := congrFun h ix0
  unfold Cert.Pre_finite_inputs.fn Cert.Pre_finite_inputs.fn_part1 at h0
  simp only [andi] at h0
  rw [IntOp.andi_eq_one, IntOp.andi_eq_one, IntOp.andi_eq_one] at h0
  obtain ⟨⟨⟨hA, hB⟩, hC⟩, hD⟩ := h0
  refine ⟨fun i => ?_, fun i => ?_, fun i => ?_, fun i => ?_⟩
  · have e := Host.reduce_andi_all _ _ _ _ ix0 hA i
    have e' : Ideal.cmp .olt (max (a0 i) (-(a0 i))) (Ideal.ofBits .f32 0x7F800000#32) = 1#1 := e
    rw [Consts.ofBits_pos_inf] at e'
    exact real_of_abs_lt_top _ e'
  · have e := Host.reduce_andi_all _ _ _ _ ix0 hB i
    have e' : Ideal.cmp .olt (max (a1 i) (-(a1 i))) (Ideal.ofBits .f32 0x7F800000#32) = 1#1 := e
    rw [Consts.ofBits_pos_inf] at e'
    exact real_of_abs_lt_top _ e'
  · have e := Host.reduce_andi_all _ _ _ _ ix0 hC i
    have e' : Ideal.cmp .ogt (a1 i + Ideal.ofBits .f32 0x1E3CE508#32) (Ideal.ofBits .f32 0x00000000#32) = 1#1 := e
    rw [Ideal.ofBits_zero_f32] at e'
    exact pos_of_gt_zero _ e'
  · have e := Host.reduce_andi_all _ _ _ _ ix0 hD i
    have e' : Ideal.cmp .ogt (-(Ideal.log (a1 i + Ideal.ofBits .f32 0x1E3CE508#32)) + Ideal.ofBits .f32 0x1E3CE508#32)
        (Ideal.ofBits .f32 0x00000000#32) = 1#1 := e
    rw [Ideal.ofBits_zero_f32] at e'
    exact pos_of_gt_zero _ e'

end Cert.GumbelPair.Domain

end
-- ==== Proof.Bridge.lean ====
/-
  The two sides meet: under the precondition the reference's result IS the result function.

  Entry by entry the reference reads the shifted softmax entry of the pair behind it, the result
  function the logistic of the scaled difference of the same pair; the precondition makes the four
  numbers of the pair real and puts both logarithms inside their domain, where the scalar law says
  the two spellings are one number. The kernel's scale is the constant named one tenth, the
  reference's divisor the real ten.
-/
import proofs.«148480_g27504970564024_cont_9to1_2017_8_alg».proof.Proof.RefEntry
import proofs.«148480_g27504970564024_cont_9to1_2017_8_alg».proof.Proof.Domain
import proofs.«148480_g27504970564024_cont_9to1_2017_8_alg».proof.Proof.Spec
import proofs.«148480_g27504970564024_cont_9to1_2017_8_alg».proof.Proof.KernelEntry
import Idealize.ShloMosaic.PureOps.IdealRules

noncomputable section

namespace Cert.GumbelPair

open Idealize.ShloMosaic Idealize.ShloMosaic.ValueIdx

/-- The kernel's named scale denotes the rational one tenth, by the certificate's table. -/
theorem scale_eq : Kernel.scale = ((1 / 10 : ℝ) : EReal) :=
  IdealRules.named_const.ideal_named_scalar _ _ _ _ rfl

/-- UNDER THE PRECONDITION the reference's result array is the result function of its arguments. -/
theorem reference_eq_result (a0 : FVec Ideal Cert.ReferenceIdeal.S4096x4096x2 .f32)
    (a1 : FVec Ideal Cert.ReferenceIdeal.S16777216x2 .f32)
    (h : Cert.Pre_finite_inputs.fn (F := Ideal) a0 a1 = fun _ => 1#1) :
    Cert.ReferenceIdeal.Read.val_main_v25 (F := Ideal) a0 a1
      = resultOf (Ideal.ofBits .f32 0x1E3CE508#32) Kernel.scale a0 a1 := by
  have D := Domain.inDomain_of_pre a0 a1 h
  funext j
  obtain ⟨R, C, rfl⟩ : ∃ (R C : Fin 4096), j = ix2 R C := ⟨j 0, j 1, eq_ix2 j⟩
  rw [Reference.entry_at, resultOf_apply, scale_eq]
  obtain ⟨c, hc⟩ := Consts.ofBits_offset_real
  obtain ⟨g0, hg0⟩ := D.logit_real (ix3 R C 0)
  obtain ⟨g1, hg1⟩ := D.logit_real (ix3 R C 1)
  obtain ⟨u0, hu0⟩ := D.uniform_real (ix2 (pairIdx R C) 0)
  obtain ⟨u1, hu1⟩ := D.uniform_real (ix2 (pairIdx R C) 1)
  have p0 := D.first_log_pos (ix2 (pairIdx R C) 0)
  have q0 := D.second_log_pos (ix2 (pairIdx R C) 0)
  have p1 := D.first_log_pos (ix2 (pairIdx R C) 1)
  have q1 := D.second_log_pos (ix2 (pairIdx R C) 1)
  rw [hc, hu0] at p0 q0
  rw [hc, hu1] at p1 q1
  rw [hc, hg0, hg1, hu0, hu1]
  exact referenceEntry_eq_kernelEntry c g0 g1 u0 u1 p0 q0 p1 q1

end Cert.GumbelPair

end
-- ==== Proof.lean ====
/-
  A Gumbel-softmax over pairs of channels, read as one function of its two arguments.

  For every entry (R, C) of a 4096 x 4096 matrix there is a pair of channels with logits g_0, g_1
  and uniform numbers u_0, u_1. Channel k's perturbed logit is y_k = g_k - log(-log(u_k + c) + c),
  c a tiny positive offset. The reference takes the two-term softmax of (y_0 / 10, y_1 / 10),
  shifted by the pair's maximum, and keeps its first entry; the kernel streams both inputs in a
  channel-major re-layout (row 64 R + 2 (C / 128) + ch, lane C mod 128), subtracts the two channels
  and applies the logistic function to (y_0 - y_1) times one tenth.

  On real numbers a two-term softmax IS the logistic function of the difference: the shift by the
  maximum cancels between numerator and denominator. On the extended reals this needs the y_k to be
  real, which they are exactly when both logarithms are taken of positive numbers; outside that
  domain a logarithm answers an infinity and the shifted softmax meets 0 / 0 while the logistic
  function does not. The precondition therefore states, beside finiteness, that u + c > 0 and
  -log(u + c) + c > 0 at every element: the domain of the reference's own two logarithms.

  The modules: Consts (the literals), PairLaw (the scalar law), Spec (the result as one function),
  RefEntry (the reference at an entry), KernelEntry (the kernel body at an entry of its block),
  NativeView (the re-laid inputs at an index), Blocks (the 32 blocks cover the output), Domain (the
  precondition read back), Bridge (the two sides meet). Here: the three runs, the named constant,
  and the equality of the results.
-/
import proofs.«148480_g27504970564024_cont_9to1_2017_8_alg».proof.Defs
import proofs.«148480_g27504970564024_cont_9to1_2017_8_alg».proof.Proof.Gen.Kernel
import proofs.«148480_g27504970564024_cont_9to1_2017_8_alg».proof.Proof.Gen.Kernel.Skeleton
import proofs.«148480_g27504970564024_cont_9to1_2017_8_alg».proof.Proof.Gen.Kernel.Launch
import proofs.«148480_g27504970564024_cont_9to1_2017_8_alg».proof.Proof.Gen.Kernel.Points
import proofs.«148480_g27504970564024_cont_9to1_2017_8_alg».proof.Proof.Gen.Kernel.Frame
import proofs.«148480_g27504970564024_cont_9to1_2017_8_alg».proof.Proof.Gen.KernelIdeal
import proofs.«148480_g27504970564024_cont_9to1_2017_8_alg».proof.Proof.Gen.KernelIdeal.Skeleton
import proofs.«148480_g27504970564024_cont_9to1_2017_8_alg».proof.Proof.Gen.KernelIdeal.Launch
import proofs.«148480_g27504970564024_cont_9to1_2017_8_alg».proof.Proof.Gen.KernelIdeal.Points
import proofs.«148480_g27504970564024_cont_9to1_2017_8_alg».proof.Proof.Gen.KernelIdeal.Frame
import proofs.«148480_g27504970564024_cont_9to1_2017_8_alg».proof.Proof.Gen.ReferenceIdeal
import proofs.«148480_g27504970564024_cont_9to1_2017_8_alg».proof.Proof.Gen.Pre_finite_inputs
import proofs.«148480_g27504970564024_cont_9to1_2017_8_alg».proof.Proof.Gen.KernelIdeal.Value
import proofs.«148480_g27504970564024_cont_9to1_2017_8_alg».proof.Proof.Gen.ReferenceIdeal.Run
import proofs.«148480_g27504970564024_cont_9to1_2017_8_alg».proof.Proof.Gen.ReferenceIdeal.Read
import proofs.«148480_g27504970564024_cont_9to1_2017_8_alg».proof.Proof.Blocks
import proofs.«148480_g27504970564024_cont_9to1_2017_8_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the literal the kernel scales by is named one tenth, the
    fraction its source spells (1 / 10.0), and the printed constant is that value on the extended reals. -/
theorem preserves : Cert.preserves_Kernel_KernelIdeal :=
  IdealRules.named_const.statement Cert.KernelIdeal.κ "inv_10" .f32 0x3DCCCCCD#32 ((1 / 10 : ℝ) : EReal) rfl

/-- From memories agreeing on the arguments both programs end with the same matrix: the kernel's
    output array is the result function of its arguments (the 32 blocks cover it), the reference's
    result is the same function of the same arguments inside the logarithms' domain. -/
theorem algebraic : Cert.algebraic_KernelIdeal_ReferenceIdeal := by
  intro m ρ m' ρ' hpre hagree
  refine ⟨_, Cert.GumbelPair.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v25_eq]
  exact Cert.GumbelPair.reference_eq_result _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
